-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x147456 : Shape := ⟨2, ![1, 147456]⟩
abbrev S1000x147456 : Shape := ⟨2, ![1000, 147456]⟩
abbrev S1000 : Shape := ⟨1, ![1000]⟩
abbrev S_ : Shape := ⟨0, ![]⟩

class Facts : Prop where
  bcast_S_S1x147456 : S_.BroadcastsInDim S1x147456 (![] : Fin 0 → Fin S1x147456.rank)
  reducesTo_S1x147456_S_d0_1 : S1x147456.ReducesTo [0, 1] S_
  h_S_ : 0 < S_.numel
  bcast_S_S1000x147456 : S_.BroadcastsInDim S1000x147456 (![] : Fin 0 → Fin S1000x147456.rank)
  reducesTo_S1000x147456_S_d0_1 : S1000x147456.ReducesTo [0, 1] S_
  bcast_S_S1000 : S_.BroadcastsInDim S1000 (![] : Fin 0 → Fin S1000.rank)
  reducesTo_S1000_S_d0 : S1000.ReducesTo [0] S_

variable [Facts]

def fn {F : FTy → Type} [FloatOps F] (main_arg0 : FVec F S1x147456 .f32) (main_arg1 : FVec F S1000x147456 .f32) (main_arg2 : FVec F S1000 .f32) : IVec S_ 1 :=
  let main_v0 : FVec F S1x147456 .f32 := Host.absf main_arg0
  let main_cst : FVec F S_ .f32 := constant S_ .f32 0x7F800000#32
  let main_v1 : FVec F S1x147456 .f32 := broadcastInDim S1x147456 ![] bcast_S_S1x147456 main_cst
  let main_v2 : IVec S1x147456 1 := cmpf .olt main_v0 main_v1
  let main_c : IVec S_ 1 := constantI S_ 1 1#1
  let main_v3 : IVec S_ 1 := (fun x v => Host.reduce IntOp.andi x v reducesTo_S1x147456_S_d0_1 h_S_) main_v2 main_c
  let main_v4 : FVec F S1000x147456 .f32 := Host.absf main_arg1
  let main_cst_0 : FVec F S_ .f32 := constant S_ .f32 0x7F800000#32
  let main_v5 : FVec F S1000x147456 .f32 := broadcastInDim S1000x147456 ![] bcast_S_S1000x147456 main_cst_0
  let main_v6 : IVec S1000x147456 1 := cmpf .olt main_v4 main_v5
  let main_c_1 : IVec S_ 1 := constantI S_ 1 1#1
  let main_v7 : IVec S_ 1 := (fun x v => Host.reduce IntOp.andi x v reducesTo_S1000x147456_S_d0_1 h_S_) main_v6 main_c_1
  let main_v8 : IVec S_ 1 := andi main_v3 main_v7
  let main_v9 : FVec F S1000 .f32 := Host.absf main_arg2
  let main_cst_2 : FVec F S_ .f32 := constant S_ .f32 0x7F800000#32
  let main_v10 : FVec F S1000 .f32 := broadcastInDim S1000 ![] bcast_S_S1000 main_cst_2
  let main_v11 : IVec S1000 1 := cmpf .olt main_v9 main_v10
  let main_c_3 : IVec S_ 1 := constantI S_ 1 1#1
  let main_v12 : IVec S_ 1 := (fun x v => Host.reduce IntOp.andi x v reducesTo_S1000_S_d0 h_S_) main_v11 main_c_3
  let main_v13 : IVec S_ 1 := andi main_v8 main_v12
  main_v13
-- ==== Kernel.lean ====
abbrev S1x147456 : Shape := ⟨2, ![1, 147456]⟩
abbrev S1000x147456 : Shape := ⟨2, ![1000, 147456]⟩
abbrev S1000 : Shape := ⟨1, ![1000]⟩
abbrev S2x1x1000 : Shape := ⟨3, ![2, 1, 1000]⟩
abbrev S1x4096 : Shape := ⟨2, ![1, 4096]⟩
abbrev S1000x4096 : Shape := ⟨2, ![1000, 4096]⟩
abbrev S1x1x1000 : Shape := ⟨3, ![1, 1, 1000]⟩
abbrev S1x1000 : Shape := ⟨2, ![1, 1000]⟩

abbrev nBuf : Space → Nat
  | .hbm => 11
  | .vmem => 7
  | .smem => 0
  | _ => 0

abbrev bufTy : (tb : Table) → Fin (tcTables nBuf tb) → BufTy
  | .hbm, ⟨0, _⟩ => ⟨S1x147456, .f32⟩
  | .hbm, ⟨1, _⟩ => ⟨S1000x147456, .f32⟩
  | .hbm, ⟨2, _⟩ => ⟨S1000, .f32⟩
  | .hbm, ⟨3, _⟩ => ⟨S2x1x1000, .f32⟩
  | .hbm, ⟨4, _⟩ => ⟨S1x1x1000, .f32⟩
  | .hbm, ⟨5, _⟩ => ⟨S1x1000, .f32⟩
  | .hbm, ⟨6, _⟩ => ⟨S1x1x1000, .f32⟩
  | .hbm, ⟨7, _⟩ => ⟨S1x1000, .f32⟩
  | .hbm, ⟨8, _⟩ => ⟨S1x1000, .f32⟩
  | .hbm, ⟨9, _⟩ => ⟨S1x1000, .f32⟩
  | .hbm, ⟨10, _⟩ => ⟨S1x1000, .f32⟩
  | .local _ .vmem, ⟨0, _⟩ => ⟨S1x4096, .f32⟩
  | .local _ .vmem, ⟨1, _⟩ => ⟨S1x4096, .f32⟩
  | .local _ .vmem, ⟨2, _⟩ => ⟨S1000x4096, .f32⟩
  | .local _ .vmem, ⟨3, _⟩ => ⟨S1000x4096, .f32⟩
  | .local _ .vmem, ⟨4, _⟩ => ⟨S1x1x1000, .f32⟩
  | .local _ .vmem, ⟨5, _⟩ => ⟨S1x1x1000, .f32⟩
  | .local _ .vmem, ⟨6, _⟩ => ⟨S1x1000, .f32⟩
  | _, _ => ⟨S1x147456, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 18], ![false, false]⟩

def k0_cond2 (i : grid0.Coords) : BitVec 1 :=
  let arg1 : BitVec 32 := BitVec.ofNat 32 (i 1).val
  let c17_i32 : BitVec 32 := 17#32
  let v13 : BitVec 1 := Scalar.cmpi .eq arg1 c17_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.muli arg0 c18_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.muli arg0 c18_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1000x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  inb_S1x4096_S1x4096_0_0 : ∀ a, (![0, 0] : Fin 2 → Nat) a + S1x4096.size a ≤ S1x4096.size a
  h_S1x4096 : 0 < S1x4096.numel
  bitsLt_bf16_f32 : FTy.bits .bf16 < FTy.bits .f32
  inb_S1000x4096_S1000x4096_0_0 : ∀ a, (![0, 0] : Fin 2 → Nat) a + S1000x4096.size a ≤ S1000x4096.size a
  h_S1000x4096 : 0 < S1000x4096.numel
  inb_S1x1x1000_S1x1x1000_0_0_0 : ∀ a, (![0, 0, 0] : Fin 3 → Nat) a + S1x1x1000.size a ≤ S1x1x1000.size a
  h_S1x1x1000 : 0 < S1x1x1000.numel
  shapeCasts_S1x1x1000_S1x1000 : S1x1x1000.ShapeCasts S1x1000
  shapeCasts_S1x1000_S1x1x1000 : S1x1000.ShapeCasts S1x1x1000
  slices_S2x1x1000_S1x1x1000_0_0_0 : S2x1x1000.Slices ![0, 0, 0] S1x1x1000
  slices_S2x1x1000_S1x1x1000_1_0_0 : S2x1x1000.Slices ![1, 0, 0] S1x1x1000
  bcast_S1000_S1x1000_1 : S1000.BroadcastsInDim S1x1000 (![1] : Fin 1 → Fin S1x1000.rank)
  dot_S1x4096_S1000x4096_S1x1000_1_1_0_0_n_n_wf : DotDims.WF S1x4096 S1000x4096 S1x1000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096.size a ≤ S1x147456.size a
  hwx0_0 : ∀ i : grid0.Coords, EltTy.bits .f32 = 32 ∨ (Rect.block (s := S1x147456) S1x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x4096.size a ≤ S1000x147456.size a
  hwx0_1 : ∀ i : grid0.Coords, EltTy.bits .f32 = 32 ∨ (Rect.block (s := S1000x147456) S1000x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1000.size a ≤ S2x1x1000.size a
  hwx0_2 : ∀ i : grid0.Coords, EltTy.bits .f32 = 32 ∨ (Rect.block (s := S2x1x1000) S1x1x1000.size (cc0_transform_2 i) (hinb0_2 i)).WholeWords (EltTy.packing .f32)

variable [Facts₀]

def dot_S1x4096_S1000x4096_S1x1000_1_1_0_0_n_n : DotDims S1x4096 S1000x4096 S1x1000 where
  lhsContracting := [1]
  rhsContracting := [1]
  lhsNonContracting := [0]
  rhsNonContracting := [0]
  lhsBatch := []
  rhsBatch := []
  wf := dot_S1x4096_S1000x4096_S1x1000_1_1_0_0_n_n_wf

abbrev win0_0 : Pipeline.Window sig grid0 :=
  Pipeline.Window.ofSpec (Memref.whole main_arg0) S1x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S1x147456 : Shape := ⟨2, ![1, 147456]⟩
abbrev S1000x147456 : Shape := ⟨2, ![1000, 147456]⟩
abbrev S1000 : Shape := ⟨1, ![1000]⟩
abbrev S1x16384x3x3 : Shape := ⟨4, ![1, 16384, 3, 3]⟩
abbrev S1000x16384x3x3 : Shape := ⟨4, ![1000, 16384, 3, 3]⟩
abbrev S1x1000 : Shape := ⟨2, ![1, 1000]⟩
abbrev S1x1000x1x1 : Shape := ⟨4, ![1, 1000, 1, 1]⟩
abbrev S147456x1000 : Shape := ⟨2, ![147456, 1000]⟩

abbrev nBuf : Space → Nat
  | .hbm => 11
  | .vmem => 0
  | .smem => 0
  | _ => 0

abbrev bufTy : (tb : Table) → Fin (tcTables nBuf tb) → BufTy
  | .hbm, ⟨0, _⟩ => ⟨S1x147456, .f32⟩
  | .hbm, ⟨1, _⟩ => ⟨S1000x147456, .f32⟩
  | .hbm, ⟨2, _⟩ => ⟨S1000, .f32⟩
  | .hbm, ⟨3, _⟩ => ⟨S1x16384x3x3, .f32⟩
  | .hbm, ⟨4, _⟩ => ⟨S1000x16384x3x3, .f32⟩
  | .hbm, ⟨5, _⟩ => ⟨S1x1000, .f32⟩
  | .hbm, ⟨6, _⟩ => ⟨S1x1000x1x1, .f32⟩
  | .hbm, ⟨7, _⟩ => ⟨S147456x1000, .f32⟩
  | .hbm, ⟨8, _⟩ => ⟨S1x1000, .f32⟩
  | .hbm, ⟨9, _⟩ => ⟨S1x1000, .f32⟩
  | .hbm, ⟨10, _⟩ => ⟨S1x1000, .f32⟩
  | _, _ => ⟨S1x147456, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  shapeCasts_S1x147456_S1x16384x3x3 : S1x147456.ShapeCasts S1x16384x3x3
  shapeCasts_S1000x147456_S1000x16384x3x3 : S1000x147456.ShapeCasts S1000x16384x3x3
  bcast_S1x1000_S1x1000x1x1_0_1 : S1x1000.BroadcastsInDim S1x1000x1x1 (![0, 1] : Fin 2 → Fin S1x1000x1x1.rank)
  transposes_S1000x147456_S147456x1000_1_0 : S1000x147456.Transposes [1, 0] S147456x1000
  bcast_S1000_S1x1000_1 : S1000.BroadcastsInDim S1x1000 (![1] : Fin 1 → Fin S1x1000.rank)
  dot_S1x16384x3x3_S1000x16384x3x3_S1x1000_132_132_0_0_n_n_wf : DotDims.WF S1x16384x3x3 S1000x16384x3x3 S1x1000 [1, 3, 2] [1, 3, 2] [0] [0] [] []
  dot_S1x147456_S147456x1000_S1x1000_1_0_0_1_n_n_wf : DotDims.WF S1x147456 S147456x1000 S1x1000 [1] [0] [0] [1] [] []

variable [Facts₀]

def dot_S1x16384x3x3_S1000x16384x3x3_S1x1000_132_132_0_0_n_n : DotDims S1x16384x3x3 S1000x16384x3x3 S1x1000 where
  lhsContracting := [1, 3, 2]
  rhsContracting := [1, 3, 2]
  lhsNonContracting := [0]
  rhsNonContracting := [0]
  lhsBatch := []
  rhsBatch := []
  wf := dot_S1x16384x3x3_S1000x16384x3x3_S1x1000_132_132_0_0_n_n_wf
def dot_S1x147456_S147456x1000_S1x1000_1_0_0_1_n_n : DotDims S1x147456 S147456x1000 S1x1000 where
  lhsContracting := [1]
  rhsContracting := [0]
  lhsNonContracting := [0]
  rhsNonContracting := [1]
  lhsBatch := []
  rhsBatch := []
  wf := dot_S1x147456_S147456x1000_S1x1000_1_0_0_1_n_n_wf

class Facts : Prop extends Facts₀ where

variable [Facts]
-- ==== Proof.Cases.lean ====
/-
  What one grid point's body leaves behind, in each of its three control cases, as a pure term of what it loaded.
  The accumulator (the scratch the kernel carries from point to point) ends at `update x w acc` — the product of the
  point's two input blocks added to the accumulator's contents before —, where at the first tile of a half the
  contents before are the zero block the body has just stored and read back; at the last tile of a half the output
  block ends at the re-laid accumulator. For any float instance.
-/
import proofs.«124288_j68590627717564_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Cases

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle tile: the accumulator holding `acc` ends at the update of `acc` by the point's blocks. -/
theorem scratch_B (c : Dev nD) (i : grid0.Coords) (a2 : Memref sig .tc .vmem S1x4096 .f32) (h2 : a2.IsWhole)
    (a3 : Memref sig .tc .vmem S1000x4096 .f32) (h3 : a3.IsWhole) (a4 : Memref sig .tc .vmem S1x1x1000 .f32) (h4 : a4.IsWhole)
    (a5 : Memref sig .tc .vmem S1x1000 .f32) (h5 : a5.IsWhole) (hc0 : ¬cond0_0 i) (hc1 : ¬cond0_1 i)
    (x0 : Vec F S1x4096 .f32) (x1 : Vec F S1000x4096 .f32) (xs0 : Vec F S1x1000 .f32) :
    sout0_B_0 c i a2 h2 a3 h3 a4 h4 a5 h5 hc0 hc1 x0 x1 xs0 = k0_pay2 x0 x1 xs0 := by
  unfold sout0_B_0
  rw [View.read_writes_eq_canon _ _ _ (scover0_B_0 c i a2 h2 a3 h3 a4 h4 a5 h5 hc0 hc1 x0 x1 xs0)]
  unfold kernelRun0_B
  dsimp only
  rw [View.canon_unit_zero hz2]
  simp only [View.readAt_eq_ld, h2.read_unread, h3.read_unread, h5.read_unread, View.ld_unit_zero (S := S1x4096) hz2,
    View.ld_unit_zero (S := S1000x4096) hz2, View.ld_unit_zero (S := S1x1000) hz2]

/-- The first tile of a half: the accumulator is cleared, read back, and ends at the update of the zero block. -/
theorem scratch_A (c : Dev nD) (i : grid0.Coords) (a2 : Memref sig .tc .vmem S1x4096 .f32) (h2 : a2.IsWhole)
    (a3 : Memref sig .tc .vmem S1000x4096 .f32) (h3 : a3.IsWhole) (a4 : Memref sig .tc .vmem S1x1x1000 .f32) (h4 : a4.IsWhole)
    (a5 : Memref sig .tc .vmem S1x1000 .f32) (h5 : a5.IsWhole) (hc0 : cond0_0 i) (hc1 : ¬cond0_1 i)
    (x0 : Vec F S1x4096 .f32) (x1 : Vec F S1000x4096 .f32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1000) hz2, View.readCov_unit_zero (S := S1x1000) _ hz2]
  simp only [View.readAt_eq_ld, h2.read_unread, h3.read_unread, View.ld_unit_zero (S := S1x4096) hz2,
    View.ld_unit_zero (S := S1000x4096) hz2]

/-- The last tile of a half: the accumulator ends at the update, as at a middle tile, -/
theorem scratch_C (c : Dev nD) (i : grid0.Coords) (a2 : Memref sig .tc .vmem S1x4096 .f32) (h2 : a2.IsWhole)
    (a3 : Memref sig .tc .vmem S1000x4096 .f32) (h3 : a3.IsWhole) (a4 : Memref sig .tc .vmem S1x1x1000 .f32) (h4 : a4.IsWhole)
    (a5 : Memref sig .tc .vmem S1x1000 .f32) (h5 : a5.IsWhole) (hc0 : ¬cond0_0 i) (hc1 : cond0_1 i)
    (x0 : Vec F S1x4096 .f32) (x1 : Vec F S1000x4096 .f32) (xs0 : Vec F S1x1000 .f32) :
    sout0_C_0 c i a2 h2 a3 h3 a4 h4 a5 h5 hc0 hc1 x0 x1 xs0 = k0_pay2 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz2]
  simp only [View.readAt_eq_ld, h2.read_unread, h3.read_unread, h5.read_unread, View.ld_unit_zero (S := S1x4096) hz2,
    View.ld_unit_zero (S := S1000x4096) hz2, View.ld_unit_zero (S := S1x1000) hz2]

/-- and the output block is that accumulator, read back and re-laid as a [1, 1, 1000] block. -/
theorem out_C (c : Dev nD) (i : grid0.Coords) (a2 : Memref sig .tc .vmem S1x4096 .f32) (h2 : a2.IsWhole)
    (a3 : Memref sig .tc .vmem S1000x4096 .f32) (h3 : a3.IsWhole) (a4 : Memref sig .tc .vmem S1x1x1000 .f32) (h4 : a4.IsWhole)
    (a5 : Memref sig .tc .vmem S1x1000 .f32) (h5 : a5.IsWhole) (hc0 : ¬cond0_0 i) (hc1 : cond0_1 i)
    (x0 : Vec F S1x4096 .f32) (x1 : Vec F S1000x4096 .f32) (xs0 : Vec F S1x1000 .f32) :
    out0_C_2 c i a2 h2 a3 h3 a4 h4 a5 h5 hc0 hc1 x0 x1 xs0 = k0_pay3 (k0_pay2 x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz3, View.readCov_unit_zero (S := S1x1000) _ hz2]
  simp only [View.readAt_eq_ld, h2.read_unread, h3.read_unread, h5.read_unread, View.ld_unit_zero (S := S1x4096) hz2,
    View.ld_unit_zero (S := S1000x4096) hz2, View.ld_unit_zero (S := S1x1000) hz2]

end Cert.KernelIdeal.Cases

end
-- ==== Proof.Payload.lean ====
/-
  The body's three stored values read at an index, at the ideal instance (a float an extended real, a change of
  format the identity). The cleared accumulator is `0` everywhere; the update of an accumulator `acc` by an
  input row `x` (4096 entries) and an input block `w` (1000 rows of 4096) is, at column `o`,
  `acc o + ∑ j, x j * w o j` — the matrix product into a zero accumulator is that finite sum; the output block is
  the accumulator with a unit axis added in front.
-/
import proofs.«124288_j68590627717564_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.KernelIdeal.Payload

open Cert.KernelIdeal Cert.KernelIdeal.Gen

/-- The cleared accumulator is zero. -/
theorem cleared_apply (j : S1x1000.Idx) : k0_pay1 (F := Ideal) j = 0 := by
  unfold k0_pay1
  rw [shapeCast_self]
  exact Ideal.ofBits_zero_f32

/-- The product's index maps, axis by axis: the row operand's unit axis follows the output's unit axis, -/
theorem lhs_axis0 (i : S1x1000.Idx) (q : dot_S1x4096_S1000x4096_S1x1000_1_1_0_0_n_n.contr.Idx) : (dot_S1x4096_S1000x4096_S1x1000_1_1_0_0_n_n.lhsIdx i q 0).val = (i 0).val := by
  unfold DotDims.lhsIdx
  rw [dif_neg (show ¬(0 : Fin S1x4096.rank) ∈ dot_S1x4096_S1000x4096_S1x1000_1_1_0_0_n_n.lhsBatch by decide), dif_pos (show (0 : Fin S1x4096.rank) ∈ dot_S1x4096_S1000x4096_S1x1000_1_1_0_0_n_n.lhsNonContracting by decide)]
  rfl
/-- its long axis is the contraction position; -/
theorem lhs_axis1 (i : S1x1000.Idx) (q : dot_S1x4096_S1000x4096_S1x1000_1_1_0_0_n_n.contr.Idx) : (dot_S1x4096_S1000x4096_S1x1000_1_1_0_0_n_n.lhsIdx i q 1).val = (q ⟨0, by decide⟩).val :=
  dot_S1x4096_S1000x4096_S1x1000_1_1_0_0_n_n.lhsIdx_val_of_single rfl i q
/-- the block operand's row is the output column, -/
theorem rhs_axis0 (i : S1x1000.Idx) (q : dot_S1x4096_S1000x4096_S1x1000_1_1_0_0_n_n.contr.Idx) : (dot_S1x4096_S1000x4096_S1x1000_1_1_0_0_n_n.rhsIdx i q 0).val = (i 1).val := by
  unfold DotDims.rhsIdx
  rw [dif_neg (show ¬(0 : Fin S1000x4096.rank) ∈ dot_S1x4096_S1000x4096_S1x1000_1_1_0_0_n_n.rhsBatch by decide), dif_pos (show (0 : Fin S1000x4096.rank) ∈ dot_S1x4096_S1000x4096_S1x1000_1_1_0_0_n_n.rhsNonContracting by decide)]
  rfl
/-- and its long axis the contraction position. -/
theorem rhs_axis1 (i : S1x1000.Idx) (q : dot_S1x4096_S1000x4096_S1x1000_1_1_0_0_n_n.contr.Idx) : (dot_S1x4096_S1000x4096_S1x1000_1_1_0_0_n_n.rhsIdx i q 1).val = (q ⟨0, by decide⟩).val :=
  dot_S1x4096_S1000x4096_S1x1000_1_1_0_0_n_n.rhsIdx_val_of_single rfl i q

/-- So the left operand at output index `i` and contraction position `k` is entry `k` of the row; -/
theorem lhs_at (i : S1x1000.Idx) (k : Fin 4096) :
    dot_S1x4096_S1000x4096_S1x1000_1_1_0_0_n_n.lhsIdx i ((contrEquiv1 dot_S1x4096_S1000x4096_S1x1000_1_1_0_0_n_n 4096 rfl rfl).symm k) = ix2 (i 0) k :=
  funext fun a => Fin.ext (by
    have hk := contrEquiv1_symm_val dot_S1x4096_S1000x4096_S1x1000_1_1_0_0_n_n 4096 rfl rfl k
    match a with
    | ⟨0, _⟩ => exact lhs_axis0 _ _
    | ⟨1, _⟩ => exact (lhs_axis1 _ _).trans hk)

/-- the right operand is entry `k` of row `i 1` of the block. -/
theorem rhs_at (i : S1x1000.Idx) (k : Fin 4096) :
    dot_S1x4096_S1000x4096_S1x1000_1_1_0_0_n_n.rhsIdx i ((contrEquiv1 dot_S1x4096_S1000x4096_S1x1000_1_1_0_0_n_n 4096 rfl rfl).symm k) = ix2 (i 1) k :=
  funext fun a => Fin.ext (by
    have hk := contrEquiv1_symm_val dot_S1x4096_S1000x4096_S1x1000_1_1_0_0_n_n 4096 rfl rfl k
    match a with
    | ⟨0, _⟩ => exact rhs_axis0 _ _
    | ⟨1, _⟩ => exact (rhs_axis1 _ _).trans hk)

/-- The update at column `o`: the accumulator there plus the 4096 products of the row with row `o` of the block. -/
theorem update_apply (x : Vec Ideal S1x4096 .f32) (w : Vec Ideal S1000x4096 .f32) (acc : Vec Ideal S1x1000 .f32) (o : Fin 1000) :
    k0_pay2 (F := Ideal) x w acc (ix2 (0 : Fin 1) o)
      = acc (ix2 (0 : Fin 1) o) + ∑ j : Fin 4096, x (ix2 (0 : Fin 1) j) * w (ix2 o j) := by
  unfold k0_pay2
  rw [shapeCast_self]
  show acc (ix2 (0 : Fin 1) o) + FloatOps.matmul (F := Ideal) dot_S1x4096_S1000x4096_S1x1000_1_1_0_0_n_n none
    (truncf (F := Ideal) (φ := .f32) .bf16 x bitsLt_bf16_f32) (truncf (F := Ideal) (φ := .f32) .bf16 w bitsLt_bf16_f32)
    (constant (F := Ideal) S1x1000 .f32 0x00000000#32) (ix2 (0 : Fin 1) o) = _
  rw [Ideal.matmul_constant_zero_apply, ← Equiv.sum_comp (contrEquiv1 dot_S1x4096_S1000x4096_S1x1000_1_1_0_0_n_n 4096 rfl rfl).symm]
  refine congrArg (acc (ix2 (0 : Fin 1) o) + ·) (Finset.sum_congr rfl fun k _ => ?_)
  rw [lhs_at, rhs_at]
  rfl

/-- The output block at `(0, 0, o)` is the accumulator at `(0, o)` (any float instance). -/
theorem relaid_apply {F : FTy → Type} [FloatOps F] (v : Vec F S1x1000 .f32) (o : Fin 1000) :
    k0_pay3 v (ix3 (0 : Fin 1) (0 : Fin 1) o) = v (ix2 (0 : Fin 1) o) := by
  unfold k0_pay3
  exact shapeCast_apply v shapeCasts_S1x1000_S1x1x1000 _ _ (by
    rw [Shape.rowMajor_val_two, Shape.rowMajor_val_three]; rfl)

end Cert.KernelIdeal.Payload

end
-- ==== Proof.LibBlockSum.lean ====
/-
  Finite sums over consecutive blocks, in any commutative additive monoid (used at the extended reals): a sum over
  `N` consecutive blocks of `B` terms is the sum over all `N * B` terms; a tail of zero terms drops; a sum over
  `a + b + c` terms splits into its three consecutive pieces. Stated over `Finset.range` and over `Fin`.
-/
import Mathlib.Algebra.BigOperators.Fin
import Mathlib.Algebra.BigOperators.Intervals

namespace Cert.LibBlockSum

open Finset

variable {M : Type*} [AddCommMonoid M]

/-- `N` consecutive blocks of `B` terms: the double sum over (block, position in the block) is the flat sum. -/
theorem sum_blocks_range (N B : ℕ) (f : ℕ → M) :
    ∑ t ∈ range N, ∑ j ∈ range B, f (B * t + j) = ∑ q ∈ range (N * B), f q := by
  induction N with
  | zero => simp
  | succ n ih =>
    rw [Finset.sum_range_succ, ih, Nat.succ_mul, Finset.sum_range_add, Nat.mul_comm B n]

/-- The same over `Fin`. -/
theorem sum_blocks (N B : ℕ) (f : ℕ → M) :
    ∑ t : Fin N, ∑ j : Fin B, f (B * t.val + j.val) = ∑ q : Fin (N * B), f q.val := by
  have h1 : ∀ t : ℕ, ∑ j : Fin B, f (B * t + j.val) = ∑ j ∈ range B, f (B * t + j) :=
    fun t => Fin.sum_univ_eq_sum_range (fun j => f (B * t + j)) B
  simp only [h1]
  rw [Fin.sum_univ_eq_sum_range (fun t => ∑ j ∈ range B, f (B * t + j)) N, Fin.sum_univ_eq_sum_range f (N * B)]
  exact sum_blocks_range N B f

/-- A tail of zero terms drops. -/
theorem sum_range_pad (P Q : ℕ) (h : P ≤ Q) (f : ℕ → M) (hz : ∀ q, P ≤ q → q < Q → f q = 0) :
    ∑ q ∈ range Q, f q = ∑ q ∈ range P, f q := by
  obtain ⟨d, rfl⟩ := Nat.exists_eq_add_of_le h
  have hz' : ∑ x ∈ range d, f (P + x) = 0 :=
    Finset.sum_eq_zero fun x hx => hz _ (Nat.le_add_right _ _) (by have := Finset.mem_range.mp hx; omega)
  rw [Finset.sum_range_add, hz', add_zero]

/-- The same over `Fin`. -/
theorem sum_pad (P Q : ℕ) (h : P ≤ Q) (f : ℕ → M) (hz : ∀ q, P ≤ q → q < Q → f q = 0) :
    ∑ q : Fin Q, f q.val = ∑ q : Fin P, f q.val := by
  rw [Fin.sum_univ_eq_sum_range f Q, Fin.sum_univ_eq_sum_range f P]
  exact sum_range_pad P Q h f hz

/-- A sum over `a + b + c` terms, split into its three consecutive pieces. -/
theorem sum_three (a b c : ℕ) (f : ℕ → M) :
    ∑ q : Fin (a + b + c), f q.val = ∑ q : Fin a, f q.val + ∑ q : Fin b, f (a + q.val) + ∑ q : Fin c, f (a + b + q.val) := by
  rw [Fin.sum_univ_eq_sum_range f (a + b + c), Finset.sum_range_add, Finset.sum_range_add,
    Fin.sum_univ_eq_sum_range f a, Fin.sum_univ_eq_sum_range (fun q => f (a + q)) b,
    Fin.sum_univ_eq_sum_range (fun q => f (a + b + q)) c]

end Cert.LibBlockSum
-- ==== Proof.Sums.lean ====
/-
  The arithmetic of the tiling. The contraction axis of length 147456 = 2 · 18 · 4096 is cut into two halves of
  eighteen tiles of 4096 terms. A tile's sum, the running sum over the tiles of a half (what an accumulator that is
  cleared at the first tile of each half holds after tile `n`), a half's sum; the two halves add up to the sum over
  the whole axis. In any commutative additive monoid (used at the extended reals, where addition is commutative
  and associative at the infinities too, so no finiteness is asked).
-/
import Mathlib.Algebra.BigOperators.Fin
import Mathlib.Algebra.BigOperators.Intervals
import proofs.«124288_j68590627717564_2_alg».proof.Proof.LibBlockSum

namespace Cert.TiledDot

open Finset

variable {M : Type*} [AddCommMonoid M]

/-- Tile `t`: the 4096 consecutive terms from `4096 * t`. -/
def tile (f : ℕ → M) (t : ℕ) : M := ∑ j : Fin 4096, f (4096 * t + j.val)

/-- Half `h`: its eighteen tiles. -/
def half (f : ℕ → M) (h : ℕ) : M := ∑ k ∈ range 18, tile f (18 * h + k)

/-- The running sum after tile `n`: the tiles of `n`'s half up to and including `n`. -/
def running (f : ℕ → M) (n : ℕ) : M := ∑ k ∈ range (n % 18 + 1), tile f (n / 18 * 18 + k)

/-- At the first tile of a half the running sum is that tile. -/
theorem running_first (f : ℕ → M) (n : ℕ) (h : n % 18 = 0) : running f n = tile f n := by
  unfold running
  rw [h, Finset.sum_range_one, show n / 18 * 18 + 0 = n from by omega]

/-- At a later tile of a half it is the running sum before, plus the tile. -/
theorem running_step (f : ℕ → M) (n : ℕ) (h : ¬(n + 1) % 18 = 0) : running f (n + 1) = running f n + tile f (n + 1) := by
  unfold running
  rw [show (n + 1) % 18 + 1 = (n % 18 + 1) + 1 from by omega, Finset.sum_range_succ,
    show (n + 1) / 18 = n / 18 from by omega, show n / 18 * 18 + (n % 18 + 1) = n + 1 from by omega]

/-- After the last tile of a half it is the half's sum. -/
theorem running_last (f : ℕ → M) (n : ℕ) (h : n % 18 = 17) : running f n = half f (n / 18) := by
  unfold running half
  rw [h, show n / 18 * 18 = 18 * (n / 18) from Nat.mul_comm _ _]

/-- The two halves are the whole axis. -/
theorem halves_eq_total (f : ℕ → M) : half f 0 + half f 1 = ∑ q : Fin 147456, f q.val := by
  have h1 : ∑ t : Fin 36, ∑ j : Fin 4096, f (4096 * t.val + j.val) = ∑ q : Fin 147456, f q.val :=
    Cert.LibBlockSum.sum_blocks 36 4096 f
  rw [← h1, Fin.sum_univ_eq_sum_range (fun t => ∑ j : Fin 4096, f (4096 * t + j.val)) 36,
    show (36 : ℕ) = 18 + 18 from rfl, Finset.sum_range_add]
  unfold half tile
  simp only [Nat.mul_zero, Nat.zero_add, Nat.mul_one]

end Cert.TiledDot
-- ==== Proof.Spec.lean ====
/-
  The specification. The row `x` (147456 entries) and the matrix `W` (1000 rows of 147456) as functions of a position
  `q` along the contraction axis (zero past its end, so that positions are plain naturals); the term
  `x q * W o q` of output column `o`; the result `out o = (∑ q, x q * W o q) + b o`. The kernel forms the sum as two
  halves of eighteen tiles each; the reference as one sum (Sums.lean joins them).
-/
import Idealize.ShloMosaic.PureOps.Ideal
import Idealize.ShloMosaic.Lib.ValueIdx
import proofs.«124288_j68590627717564_2_alg».proof.Proof.Sums

noncomputable section

open Idealize.ShloMosaic Idealize.ShloMosaic.ValueIdx

namespace Cert.TiledDot

/-- Entry `q` of the row. -/
def rowAt (x : (⟨2, ![1, 147456]⟩ : Shape).Idx → EReal) (q : ℕ) : EReal :=
  if h : q < 147456 then x (ix2 (0 : Fin 1) (⟨q, h⟩ : Fin 147456)) else 0

/-- Entry `q` of row `o` of the matrix. -/
def matAt (W : (⟨2, ![1000, 147456]⟩ : Shape).Idx → EReal) (o : Fin 1000) (q : ℕ) : EReal :=
  if h : q < 147456 then W (ix2 o (⟨q, h⟩ : Fin 147456)) else 0

/-- The term at position `q` of output column `o`. -/
def term (x : (⟨2, ![1, 147456]⟩ : Shape).Idx → EReal) (W : (⟨2, ![1000, 147456]⟩ : Shape).Idx → EReal) (o : Fin 1000) (q : ℕ) : EReal :=
  rowAt x q * matAt W o q

/-- The result: at column `o`, the sum of the terms plus the bias. -/
def result (x : (⟨2, ![1, 147456]⟩ : Shape).Idx → EReal) (W : (⟨2, ![1000, 147456]⟩ : Shape).Idx → EReal)
    (b : (⟨1, ![1000]⟩ : Shape).Idx → EReal) : (⟨2, ![1, 1000]⟩ : Shape).Idx → EReal :=
  fun i => (∑ q : Fin 147456, term x W (i 1) q.val) + b (ix1 (i 1))

/-- The two half sums and the bias, added as the kernel's surrounding code adds them, are the result. -/
theorem halves_add_bias (x : (⟨2, ![1, 147456]⟩ : Shape).Idx → EReal) (W : (⟨2, ![1000, 147456]⟩ : Shape).Idx → EReal)
    (b : (⟨1, ![1000]⟩ : Shape).Idx → EReal) (i : (⟨2, ![1, 1000]⟩ : Shape).Idx) :
    half (term x W (i 1)) 0 + half (term x W (i 1)) 1 + b (ix1 (i 1)) = result x W b i := by
  unfold result
  rw [halves_eq_total]

end Cert.TiledDot

end
-- ==== Proof.Blocks.lean ====
/-
  What the kernel's two input windows hold at grid point `t` (the points are numbered row-major over the 2 × 18 grid,
  so point `t` is tile `t` of the contraction axis): entry `j` of the row block is entry `4096 t + j` of the row, and
  entry `(o, j)` of the matrix block is entry `(o, 4096 t + j)` of the matrix. So the 4096 products the body forms at
  point `t` for column `o` are the terms of tile `t`.
-/
import proofs.«124288_j68590627717564_2_alg».proof.Proof.Gen.KernelIdeal.Frame
import proofs.«124288_j68590627717564_2_alg».proof.Proof.Spec
import Idealize.ShloMosaic.Lib.Pipeline.Value

noncomputable section

open Idealize.ShloMosaic Idealize.ShloMosaic.TcCoe Idealize.SL.Sem Idealize.ShloMosaic.ValueIdx

namespace Cert.KernelIdeal.Blocks

open Cert.KernelIdeal Cert.KernelIdeal.Gen Cert.TiledDot

variable (m : (ℓ : Loc nD τ sig) → Buf (Elt Ideal) ℓ)

/-- Both input windows' index maps send point `t` to block `(0, t)`: decided over the grid. -/
theorem index_facts : ∀ t : Fin cfg0.N, win0_0.index t (0 : Fin 2) = 0 ∧ win0_0.index t (1 : Fin 2) = t.val
    ∧ win0_1.index t (0 : Fin 2) = 0 ∧ win0_1.index t (1 : Fin 2) = t.val :=
  (by decide +kernel : ∀ t : Fin grid0.N, win0_0.index t (0 : Fin 2) = 0 ∧ win0_0.index t (1 : Fin 2) = t.val
    ∧ win0_1.index t (0 : Fin 2) = 0 ∧ win0_1.index t (1 : Fin 2) = t.val)

/-- The row block at point `t`. -/
theorem row_block (c : Dev nD) (t : Fin cfg0.N) (j : Fin 4096) :
    (iblk m c 0 t : Vec Ideal S1x4096 .f32) (ix2 (0 : Fin 1) j)
      = rowAt (m ((c : Thread nD τ).loc main_arg0)) (4096 * t.val + j.val) := by
  have hN : t.val < 36 := lt_of_lt_of_eq t.isLt N_0
  have hq : 4096 * t.val + j.val < 147456 := by have := j.isLt; omega
  obtain ⟨i0, i1, -, -⟩ := index_facts t
  unfold rowAt
  rw [dif_pos hq]
  unfold iblk
  rw [View.read_apply]
  show V m c main_arg0 _ = m ((c : Thread nD τ).loc main_arg0) _
  refine (congrFun (V_main_arg0 m c) _).trans (congrArg _ (funext fun a => Fin.ext ?_))
  match a with
  | ⟨0, _⟩ => show win0_0.index t 0 * 1 + 1 * 0 = 0; rw [i0]
  | ⟨1, _⟩ => show win0_0.index t 1 * 4096 + 1 * j.val = 4096 * t.val + j.val; rw [i1]; omega

/-- The matrix block at point `t`. -/
theorem mat_block (c : Dev nD) (t : Fin cfg0.N) (o : Fin 1000) (j : Fin 4096) :
    (iblk m c 1 t : Vec Ideal S1000x4096 .f32) (ix2 o j)
      = matAt (m ((c : Thread nD τ).loc main_arg1)) o (4096 * t.val + j.val) := by
  have hN : t.val < 36 := lt_of_lt_of_eq t.isLt N_0
  have hq : 4096 * t.val + j.val < 147456 := by have := j.isLt; omega
  obtain ⟨-, -, i0, i1⟩ := index_facts t
  unfold matAt
  rw [dif_pos hq]
  unfold iblk
  rw [View.read_apply]
  show V m c main_arg1 _ = m ((c : Thread nD τ).loc main_arg1) _
  refine (congrFun (V_main_arg1 m c) _).trans (congrArg _ (funext fun a => Fin.ext ?_))
  match a with
  | ⟨0, _⟩ => show win0_1.index t 0 * 1000 + 1 * o.val = o.val; rw [i0]; omega
  | ⟨1, _⟩ => show win0_1.index t 1 * 4096 + 1 * j.val = 4096 * t.val + j.val; rw [i1]; omega

/-- The 4096 products the body forms at point `t` for column `o` (of `x0`, `x1`: the two blocks at `t`) are tile `t` of
    the column's terms. -/
theorem products_eq_tile (c : Dev nD) (t : Fin cfg0.N) (o : Fin 1000) (x0 : Vec Ideal S1x4096 .f32) (x1 : Vec Ideal S1000x4096 .f32)
    (hx0 : x0 = iblk m c 0 t) (hx1 : x1 = iblk m c 1 t) :
    ∑ j : Fin 4096, x0 (ix2 (0 : Fin 1) j) * x1 (ix2 o j)
      = tile (term (m ((c : Thread nD τ).loc main_arg0)) (m ((c : Thread nD τ).loc main_arg1)) o) t.val := by
  subst hx0 hx1
  unfold tile term
  exact Finset.sum_congr rfl fun j _ => congrArg₂ (· * ·) (row_block m c t j) (mat_block m c t o j)

end Cert.KernelIdeal.Blocks

end
-- ==== Proof.Running.lean ====
/-
  The accumulator, point by point. After grid point `n` the scratch accumulator holds, at column `o`, the running sum
  of `o`'s terms over the tiles of `n`'s half up to `n`: at the first tile of a half the body clears it and adds the
  tile (`0 + tile`), at every later tile it adds the tile to what the point before left. By induction on the point.
  At the last tile of a half the output block is the accumulator, so it holds the half's sum.
-/
import proofs.«124288_j68590627717564_2_alg».proof.Proof.Cases
import proofs.«124288_j68590627717564_2_alg».proof.Proof.Payload
import proofs.«124288_j68590627717564_2_alg».proof.Proof.Blocks

noncomputable section

open Idealize.ShloMosaic Idealize.ShloMosaic.TcCoe Idealize.SL.Sem Idealize.ShloMosaic.ValueIdx

namespace Cert.KernelIdeal.Running

open Cert.KernelIdeal Cert.KernelIdeal.Gen Cert.TiledDot

variable (m : (ℓ : Loc nD τ sig) → Buf (Elt Ideal) ℓ)

/-- One update at point `t`: column `o` of the accumulator gains tile `t` of `o`'s terms. -/
theorem update_at (c : Dev nD) (t : Fin cfg0.N) (acc : Vec Ideal S1x1000 .f32) (o : Fin 1000) :
    k0_pay2 (F := Ideal) (iblk m c 0 t) (iblk m c 1 t) acc (ix2 (0 : Fin 1) o)
      = acc (ix2 (0 : Fin 1) o) + tile (term (m ((c : Thread nD τ).loc main_arg0)) (m ((c : Thread nD τ).loc main_arg1)) o) t.val :=
  (Payload.update_apply (iblk m c 0 t) (iblk m c 1 t) acc o).trans
    (congrArg (acc (ix2 (0 : Fin 1) o) + ·) (Blocks.products_eq_tile m c t o (iblk m c 0 t) (iblk m c 1 t) rfl rfl))

/-- The accumulator after the first tile of a half. -/
theorem scratch_first (c : Dev nD) (t : Fin cfg0.N) (h0 : t.val % 18 = 0) (h1 : ¬t.val % 18 = 17) (o : Fin 1000) :
    (outsAt0 m c t.val t.isLt).2 (ix2 (0 : Fin 1) o) = running (term (m ((c : Thread nD τ).loc main_arg0)) (m ((c : Thread nD τ).loc main_arg1)) o) t.val := by
  rw [outsAt0_A m c t h0 h1]
  dsimp only
  refine (congrFun (Cases.scratch_A (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) (ix2 (0 : Fin 1) o)).trans ?_
  refine (update_at m c t (k0_pay1 (F := Ideal)) o).trans ?_
  rw [Payload.cleared_apply, zero_add, running_first _ _ h0]

/-- The accumulator after a later tile, from what it held after the tile before. -/
theorem scratch_later (c : Dev nD) (n : ℕ) (h : n + 1 < cfg0.N) (h0 : ¬(n + 1) % 18 = 0) (o : Fin 1000)
    (ih : (outsAt0 m c n (Nat.lt_of_succ_lt h)).2 (ix2 (0 : Fin 1) o) = running (term (m ((c : Thread nD τ).loc main_arg0)) (m ((c : Thread nD τ).loc main_arg1)) o) n) :
    (outsAt0 m c (n + 1) h).2 (ix2 (0 : Fin 1) o) = running (term (m ((c : Thread nD τ).loc main_arg0)) (m ((c : Thread nD τ).loc main_arg1)) o) (n + 1) := by
  rw [running_step _ n h0, ← ih]
  by_cases h1 : (n + 1) % 18 = 17
  · rw [outsAt0_C m c ⟨n + 1, h⟩ h0 h1]
    dsimp only
    refine (congrFun (Cases.scratch_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (outsAt0 m c n (Nat.lt_of_succ_lt h)).2) (ix2 (0 : Fin 1) o)).trans ?_
    exact update_at m c ⟨n + 1, h⟩ (outsAt0 m c n (Nat.lt_of_succ_lt h)).2 o
  · rw [outsAt0_B m c ⟨n + 1, h⟩ h0 h1]
    dsimp only
    refine (congrFun (Cases.scratch_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (outsAt0 m c n (Nat.lt_of_succ_lt h)).2) (ix2 (0 : Fin 1) o)).trans ?_
    exact update_at m c ⟨n + 1, h⟩ (outsAt0 m c n (Nat.lt_of_succ_lt h)).2 o

/-- THE INVARIANT: after point `n` the accumulator's column `o` is the running sum of `o`'s terms. -/
theorem scratch_eq (c : Dev nD) : ∀ (n : ℕ) (h : n < cfg0.N) (o : Fin 1000),
    (outsAt0 m c n h).2 (ix2 (0 : Fin 1) o) = running (term (m ((c : Thread nD τ).loc main_arg0)) (m ((c : Thread nD τ).loc main_arg1)) o) n
  | 0, h, o => scratch_first m c ⟨0, h⟩ (Nat.zero_mod 18) (fun e => absurd ((Nat.zero_mod 18).symm.trans e) (by decide)) o
  | n + 1, h, o => by
    have hN : n + 1 < 36 := lt_of_lt_of_eq h N_0
    by_cases h0 : (n + 1) % 18 = 0
    · exact scratch_first m c ⟨n + 1, h⟩ h0 (by show ¬(n + 1) % 18 = 17; omega) o
    · exact scratch_later m c n h h0 o (scratch_eq c n (Nat.lt_of_succ_lt h) o)

/-- At the last tile of a half the output block holds the half's sum of each column's terms. -/
theorem out_last (c : Dev nD) (t : Fin cfg0.N) (h1 : t.val % 18 = 17) (o : Fin 1000) :
    (outsAt0 m c t.val t.isLt).1 (ix3 (0 : Fin 1) (0 : Fin 1) o) = half (term (m ((c : Thread nD τ).loc main_arg0)) (m ((c : Thread nD τ).loc main_arg1)) o) (t.val / 18) := by
  have h0 : ¬t.val % 18 = 0 := by omega
  rw [← running_last _ _ h1, ← scratch_eq m c t.val t.isLt o]
  obtain ⟨n, hn⟩ := t
  cases n with
  | zero => exact absurd (Nat.zero_mod _) h0
  | succ n =>
    rw [outsAt0_C m c ⟨n + 1, hn⟩ h0 h1]
    dsimp only
    refine (congrFun (Cases.out_C (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun hh => h0 ((hcond0_0 ⟨n + 1, hn⟩).mp hh)) ((hcond0_1 ⟨n + 1, hn⟩).mpr h1) (iblk m c 0 ⟨n + 1, hn⟩) (iblk m c 1 ⟨n + 1, hn⟩) (outsAt0 m c n (Nat.lt_of_succ_lt hn)).2) (ix3 (0 : Fin 1) (0 : Fin 1) o)).trans ?_
    refine (Payload.relaid_apply (F := Ideal) (k0_pay2 (F := Ideal) (iblk m c 0 ⟨n + 1, hn⟩) (iblk m c 1 ⟨n + 1, hn⟩) (outsAt0 m c n (Nat.lt_of_succ_lt hn)).2) o).trans ?_
    exact (congrFun (Cases.scratch_C (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun hh => h0 ((hcond0_0 ⟨n + 1, hn⟩).mp hh)) ((hcond0_1 ⟨n + 1, hn⟩).mpr h1) (iblk m c 0 ⟨n + 1, hn⟩) (iblk m c 1 ⟨n + 1, hn⟩) (outsAt0 m c n (Nat.lt_of_succ_lt hn)).2) (ix2 (0 : Fin 1) o)).symm

end Cert.KernelIdeal.Running

end
-- ==== Proof.Halves.lean ====
/-
  The region's output array. Its two [1, 1000] blocks are written back once each, after the last tile of each half
  (points 17 and 35), from the output block the body stored there: so entry `(h, 0, o)` of the array ends at the sum
  of column `o`'s terms over half `h`. The two blocks cover the array.
-/
import proofs.«124288_j68590627717564_2_alg».proof.Proof.Running

noncomputable section

open Idealize.ShloMosaic Idealize.ShloMosaic.TcCoe Idealize.SL.Sem Idealize.ShloMosaic.ValueIdx
open Idealize.ShloMosaic.Pipeline (Dat)

namespace Cert.KernelIdeal.Halves

open Cert.KernelIdeal Cert.KernelIdeal.Gen Cert.TiledDot

variable (m : (ℓ : Loc nD τ sig) → Buf (Elt Ideal) ℓ)

/-- The two half sums of every column, as contents of the region's [2, 1, 1000] output array. -/
def partials (c : Dev nD) : S2x1x1000.Idx → EReal := fun i =>
  half (term (m ((c : Thread nD τ).loc main_arg0)) (m ((c : Thread nD τ).loc main_arg1)) (i 2)) (i 0).val

/-- The output window's index map sends point `t` to block `(t / 18, 0, 0)`: decided over the grid. -/
theorem out_index : ∀ t : Fin cfg0.N, win0_2.index t (0 : Fin 3) = t.val / 18 ∧ win0_2.index t (1 : Fin 3) = 0
    ∧ win0_2.index t (2 : Fin 3) = 0 :=
  (by decide +kernel : ∀ t : Fin grid0.N, win0_2.index t (0 : Fin 3) = t.val / 18 ∧ win0_2.index t (1 : Fin 3) = 0
    ∧ win0_2.index t (2 : Fin 3) = 0)

/-- The output block the body leaves at the last tile of a half, at any index of the block. -/
theorem block_at (c : Dev nD) (t : Fin cfg0.N) (h1 : t.val % 18 = 17) (y : S1x1x1000.Idx) :
    (outsAt0 m c t.val t.isLt).1 y = half (term (m ((c : Thread nD τ).loc main_arg0)) (m ((c : Thread nD τ).loc main_arg1)) (y 2)) (t.val / 18) := by
  have hy : y = ix3 (0 : Fin 1) (0 : Fin 1) (y 2) := by
    funext a
    match a with
    | ⟨0, _⟩ => exact Fin.ext (by show (y 0).val = 0; have h : (y 0).val < 1 := (y 0).isLt; omega)
    | ⟨1, _⟩ => exact Fin.ext (by show (y 1).val = 0; have h : (y 1).val < 1 := (y 1).isLt; omega)
    | ⟨2, _⟩ => rfl
  rw [hy]
  exact Running.out_last m c t h1 (y 2)

/-- What a flushing point writes back is its block of the half sums. -/
theorem flushed_eq (c : Dev nD) (t : Fin cfg0.N) (hf : (cfg0.win 2).flush t = true) :
    (dats m 0 c).flushed 2 t = ((cfg0.win 2).blk t).view.read (Elt Ideal) (partials m c) := by
  have h1 : t.val % 18 = 17 := (flush0_2 t).mp hf
  obtain ⟨e0, e1, e2⟩ := out_index t
  show (cfg0.win 2).cut (grid0.coords t) ((dats m 0 c).after 2 t) = _
  rw [after0_2]
  funext y
  rw [View.read_apply]
  refine (block_at m c t h1 y).trans ?_
  have hy0 : (y 0).val < 1 := (y 0).isLt
  have a0 : t.val / 18 = ((((cfg0.win 2).blk t).view.emb y) 0).val := by
    show _ = win0_2.index t 0 * 1 + 1 * (y 0).val
    rw [e0]; omega
  have a2 : (y 2 : Fin 1000) = (((cfg0.win 2).blk t).view.emb y) 2 := Fin.ext (by
    show (y 2).val = win0_2.index t 2 * 1000 + 1 * (y 2).val
    rw [e2]; omega)
  unfold partials
  exact congrArg₂ (fun (o : Fin 1000) (h : ℕ) => half (term (m ((c : Thread nD τ).loc main_arg0)) (m ((c : Thread nD τ).loc main_arg1)) o) h) a2 a0

/-- An index of the array is in point `t`'s block iff each coordinate is in the block's range on its axis. -/
theorem mem_blk (t : Fin cfg0.N) (i : S2x1x1000.Idx) :
    i ∈ ((cfg0.win 2).blk t).view.set ↔ ∀ a : Fin 3, win0_2.index t a * S1x1x1000.size a ≤ (i a).val ∧ (i a).val < win0_2.index t a * S1x1x1000.size a + S1x1x1000.size a := by
  show i ∈ ((View.whole main_v0).slice (win0_2.rect t)).set ↔ _
  rw [View.set_slice_whole, Rect.mem_set_unit]
  exact Iff.rfl

/-- Row `h` of the array is the block written back after the last tile of half `h`. -/
theorem cover (i : S2x1x1000.Idx) : ∃ t : Fin cfg0.N, (cfg0.win 2).flush t = true ∧ i ∈ ((cfg0.win 2).blk t).view.set := by
  have hi0 : (i 0).val < 2 := (i 0).isLt
  have hi1 : (i 1).val < 1 := (i 1).isLt
  have hi2 : (i 2).val < 1000 := (i 2).isLt
  have hlt : 18 * (i 0).val + 17 < cfg0.N := lt_of_lt_of_eq (by omega : 18 * (i 0).val + 17 < 36) N_0.symm
  refine ⟨⟨18 * (i 0).val + 17, hlt⟩, (flush0_2 _).mpr (by show (18 * (i 0).val + 17) % 18 = 17; omega), ?_⟩
  obtain ⟨e0, e1, e2⟩ := out_index ⟨18 * (i 0).val + 17, hlt⟩
  have e0' : win0_2.index ⟨18 * (i 0).val + 17, hlt⟩ (0 : Fin 3) = (i 0).val := by
    rw [e0]; show (18 * (i 0).val + 17) / 18 = (i 0).val; omega
  rw [mem_blk]
  intro a
  match a with
  | ⟨0, _⟩ => show win0_2.index _ (0 : Fin 3) * 1 ≤ (i 0).val ∧ (i 0).val < win0_2.index _ (0 : Fin 3) * 1 + 1; rw [e0']; omega
  | ⟨1, _⟩ => show win0_2.index _ (1 : Fin 3) * 1 ≤ (i 1).val ∧ (i 1).val < win0_2.index _ (1 : Fin 3) * 1 + 1; rw [e1]; omega
  | ⟨2, _⟩ => show win0_2.index _ (2 : Fin 3) * 1000 ≤ (i 2).val ∧ (i 2).val < win0_2.index _ (2 : Fin 3) * 1000 + 1000; rw [e2]; omega

/-- THE REGION'S OUTPUT: after the run the array holds the half sums. -/
theorem final (c : Dev nD) : (dats m 0 c).arrAt 2 cfg0.N = partials m c :=
  (dats m 0 c).arrAt_eq_of_cover 2 (partials m c) (flushed_eq m c) (cover)

end Cert.KernelIdeal.Halves

end
-- ==== Proof.Tail.lean ====
/-
  After the region: the host code slices the two rows of the region's [2, 1, 1000] output, re-lays each as [1, 1000],
  adds them, and adds the bias broadcast along the unit axis. Read at column `o` that is
  `P (0, 0, o) + P (1, 0, o) + b o`; with `P` the two half sums it is the specification's result. The kernel's run, with its
  result array named and its arguments unchanged, follows from the frame run.
-/
import proofs.«124288_j68590627717564_2_alg».proof.Proof.Halves
import Idealize.ShloMosaic.Lib.StableHlo.Run

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Tail

open Cert.KernelIdeal Cert.KernelIdeal.Gen Cert.TiledDot

/-- Row `h` of a [2, 1, 1000] array, sliced out and re-laid as [1, 1000], read at an index. -/
theorem row_apply {α : Type} (P : S2x1x1000.Idx → α) (h : Fin 2) (off : Fin 3 → Nat) (o0 : off 0 = h.val) (o1 : off 1 = 0) (o2 : off 2 = 0)
    (hs : S2x1x1000.Slices off S1x1x1000) (hc : S1x1x1000.ShapeCasts S1x1000) (i : S1x1000.Idx) :
    shapeCast S1x1000 (extractStridedSlice S1x1x1000 off P hs) hc i = P (ix3 h (0 : Fin 1) (i 1)) := by
  have hi0 : (i 0).val < 1 := (i 0).isLt
  refine (shapeCast_apply _ hc i (ix3 (0 : Fin 1) (0 : Fin 1) (i 1)) (by
    rw [Shape.rowMajor_val_three, Shape.rowMajor_val_two]
    show (0 * 1 + 0) * 1000 + (i 1).val = (i 0).val * 1000 + (i 1).val
    omega)).trans ?_
  exact extractStridedSlice_apply off P hs (ix3 (0 : Fin 1) (0 : Fin 1) (i 1)) (ix3 h (0 : Fin 1) (i 1)) (fun a => by
    match a with
    | ⟨0, _⟩ => show h.val = off 0 + 0; omega
    | ⟨1, _⟩ => show 0 = off 1 + 0; omega
    | ⟨2, _⟩ => show (i 1).val = off 2 + (i 1).val; omega)

/-- The bias broadcast along the unit axis, read at an index. -/
theorem bias_apply {α : Type} (b : S1000.Idx → α) (i : S1x1000.Idx) :
    broadcastInDim S1x1000 ![1] bcast_S1000_S1x1000_1 b i = b (ix1 (i 1)) :=
  broadcastInDim_apply _ bcast_S1000_S1x1000_1 b i (ix1 (i 1)) (fun a => by
    match a with
    | ⟨0, _⟩ => show (i 1).val = if (1000 : Nat) = 1 then 0 else (i 1).val; rw [if_neg (by decide)])

section AnyInstance

variable {F : FTy → Type} [FloatOps F]
variable (m : (ℓ : Loc nD τ sig) → Buf (Elt F) ℓ)

/-- The result of the host code after the region, as a term of the region's output array and the bias argument. -/
theorem tail_term (c : Dev nD) :
    Pipeline.afterTail₀ cfgs (dats m) 0 (V0 m) [hostOps1] c main_v7
      = addf (addf (shapeCast S1x1000 (extractStridedSlice S1x1x1000 ![0, 0, 0] ((dats m 0 c).arrAt 2 cfg0.N) slices_S2x1x1000_S1x1x1000_0_0_0) shapeCasts_S1x1x1000_S1x1000)
               (shapeCast S1x1000 (extractStridedSlice S1x1x1000 ![1, 0, 0] ((dats m 0 c).arrAt 2 cfg0.N) slices_S2x1x1000_S1x1x1000_1_0_0) shapeCasts_S1x1x1000_S1x1000))
          (broadcastInDim S1x1000 ![1] bcast_S1000_S1x1000_1 (m ((c : Thread nD τ).loc main_arg2))) := by
  unfold Pipeline.afterTail₀
  show StableHlo.after hostOps1 _ (Proc.devRef .tc main_v7) = _
  after_results
  rw [Pipeline.withArrays_arr _ launch0.win.arr_inj c (V0 m c) _ 2,
    Pipeline.withArrays_of_ne _ c (V0 m c) _ main_arg2 (by exact (by decide : ∀ w, Pipeline.arrRef spec0 w ≠ main_arg2))]
  rfl

end AnyInstance

variable (m : (ℓ : Loc nD τ sig) → Buf (Elt Ideal) ℓ) (ρ : Dev nD → PrngReg)

/-- At the ideal instance the kernel program's result is the specification's. -/
theorem kernel_result (c : Dev nD) :
    Pipeline.afterTail₀ cfgs (dats m) 0 (V0 m) [hostOps1] c main_v7 = result (m ((c : Thread nD τ).loc main_arg0)) (m ((c : Thread nD τ).loc main_arg1)) (m ((c : Thread nD τ).loc main_arg2)) := by
  rw [tail_term, Halves.final]
  funext i
  show (shapeCast S1x1000 (extractStridedSlice S1x1x1000 ![0, 0, 0] (Halves.partials m c) slices_S2x1x1000_S1x1x1000_0_0_0) shapeCasts_S1x1x1000_S1x1000 i
      + shapeCast S1x1000 (extractStridedSlice S1x1x1000 ![1, 0, 0] (Halves.partials m c) slices_S2x1x1000_S1x1x1000_1_0_0) shapeCasts_S1x1x1000_S1x1000 i)
      + broadcastInDim S1x1000 ![1] bcast_S1000_S1x1000_1 (m ((c : Thread nD τ).loc main_arg2)) i = _
  rw [row_apply (Halves.partials m c) 0 ![0, 0, 0] rfl rfl rfl, row_apply (Halves.partials m c) 1 ![1, 0, 0] rfl rfl rfl, bias_apply]
  exact halves_add_bias (m ((c : Thread nD τ).loc main_arg0)) (m ((c : Thread nD τ).loc main_arg1)) (m ((c : Thread nD τ).loc main_arg2)) i

/-- THE KERNEL'S RUN at the ideal instance: every weakly fair execution terminates with the result array at the
    specification's result of the argument arrays, and the arguments unchanged. -/
theorem run : θ_run defs (onTc (τ := τ) (main (F := Ideal))) ⟨m, fun _ => 0, ρ⟩ (fun r => ∀ c : Dev nD,
      r.2.mem ((c.tc : Thread nD τ).loc main_v7) = result (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h c).2 main_v7 (Pipeline.mem_restRefs_of main_v7 (by decide) (by decide))).trans (kernel_result m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c))),
       ((h c).2 main_arg2 (Pipeline.mem_restRefs_of main_arg2 (by decide) (by decide))).trans (W_main_arg2 m (dats m) c)⟩)
    (run_main m ρ)

end Cert.KernelIdeal.Tail

end
-- ==== Proof.RefValue.lean ====
/-
  The reference at the ideal instance is the specification: its result at column `o` is the product of the row
  with the transposed matrix, a sum over all 147456 positions of `x q * W o q`, plus the broadcast bias `b o`.
  (The reference's reshape-and-contract path computes a value its result does not use.)
-/
import proofs.«124288_j68590627717564_2_alg».proof.Proof.Gen.ReferenceIdeal.Read
import proofs.«124288_j68590627717564_2_alg».proof.Proof.Spec

noncomputable section

open Idealize.ShloMosaic Idealize.ShloMosaic.TcCoe Idealize.SL.Sem Idealize.ShloMosaic.ValueIdx

namespace Cert.ReferenceIdeal.RefValue

open Cert.ReferenceIdeal Cert.ReferenceIdeal.Read Cert.TiledDot

/-- The left factor at output index `i` and position `k` is entry `k` of the row (the output's first axis is a unit axis). -/
theorem left_index (i : S1x1000.Idx) (k : Fin 147456) : lidx_main_v5 i k = ix2 (0 : Fin 1) k :=
  funext fun a => Fin.ext (by
    match a with
    | ⟨0, _⟩ => show (i 0).val = 0; have h : (i 0).val < 1 := (i 0).isLt; omega
    | ⟨1, _⟩ => rfl)

/-- The right factor, through the transpose, is entry `k` of row `i 1` of the matrix. -/
theorem right_index (i : S1x1000.Idx) (k : Fin 147456) : idx_main_v4 (ridx_main_v5 i k) = ix2 (i 1) k :=
  funext fun a => Fin.ext (by
    match a with
    | ⟨0, _⟩ => rfl
    | ⟨1, _⟩ => rfl)

/-- The bias is read at the output's column. -/
theorem bias_index (i : S1x1000.Idx) : idx_main_v6 i = ix1 (i 1) :=
  funext fun a => Fin.ext (by
    match a with
    | ⟨0, _⟩ => rfl)

/-- The reference's result stage is the specification's result. -/
theorem reference_eq (x0 : (⟨S1x147456, .f32⟩ : BufTy).Contents (Elt Ideal)) (x1 : (⟨S1000x147456, .f32⟩ : BufTy).Contents (Elt Ideal))
    (x2 : (⟨S1000, .f32⟩ : BufTy).Contents (Elt Ideal)) :
    val_main_v7 (F := Ideal) x0 x1 x2 = result x0 x1 x2 := by
  funext i
  rw [val_main_v7_apply, val_main_v5_apply, val_main_v6_apply, bias_index]
  unfold result
  refine congrArg (· + x2 (ix1 (i 1))) (Finset.sum_congr rfl fun k _ => ?_)
  rw [val_main_v4_apply, left_index, right_index]
  unfold term rowAt matAt
  rw [dif_pos k.isLt, dif_pos k.isLt]
  rfl

end Cert.ReferenceIdeal.RefValue

end
-- ==== Proof.lean ====
/-
  A dense layer `out = x · Wᵀ + b` with `x` of 147456 entries, `W` of 1000 rows and a bias `b`.

  The kernel cuts the contraction axis into two halves of eighteen tiles of 4096 positions. At each tile it multiplies
  the row block by the matrix block (the casts to a shorter format are the identity on extended reals, and a product
  into a zero accumulator is a finite sum) and adds the 1000 partial products into an accumulator that it clears at
  the first tile of each half; after the last tile of a half it writes the accumulator out as one row of a [2, 1, 1000]
  array. The surrounding code adds the two rows and the bias. The reference forms `∑ q, x q * W o q` over the whole axis
  at once and adds the bias (its reshaped contraction is computed and not used).

  Both are `(∑ q, x q * W o q) + b o`: a sum over 2 · 18 · 4096 consecutive positions is the sum of its blocks' sums, in
  any commutative additive monoid — on the extended reals addition is commutative and associative at the infinities
  too, so the inputs' finiteness is not used.

  The modules: Sums (the block arithmetic), Spec (the terms and the result), Cases (what the body leaves in each control
  case), Payload (the stored values at an index), Blocks (a window's block read off its array), Running (the
  accumulator is the running sum, by induction on the grid point), Halves (the region's output array), Tail (the code
  after the region, and the kernel's run), RefValue (the reference is the specification).
-/
import proofs.«124288_j68590627717564_2_alg».proof.Defs
import proofs.«124288_j68590627717564_2_alg».proof.Proof.Gen.Kernel
import proofs.«124288_j68590627717564_2_alg».proof.Proof.Gen.Kernel.Skeleton
import proofs.«124288_j68590627717564_2_alg».proof.Proof.Gen.Kernel.Launch
import proofs.«124288_j68590627717564_2_alg».proof.Proof.Gen.Kernel.Points
import proofs.«124288_j68590627717564_2_alg».proof.Proof.Gen.Kernel.Frame
import proofs.«124288_j68590627717564_2_alg».proof.Proof.Gen.KernelIdeal
import proofs.«124288_j68590627717564_2_alg».proof.Proof.Gen.KernelIdeal.Skeleton
import proofs.«124288_j68590627717564_2_alg».proof.Proof.Gen.KernelIdeal.Launch
import proofs.«124288_j68590627717564_2_alg».proof.Proof.Gen.KernelIdeal.Points
import proofs.«124288_j68590627717564_2_alg».proof.Proof.Gen.KernelIdeal.Frame
import proofs.«124288_j68590627717564_2_alg».proof.Proof.Gen.ReferenceIdeal
import proofs.«124288_j68590627717564_2_alg».proof.Proof.Gen.ReferenceIdeal.Run
import proofs.«124288_j68590627717564_2_alg».proof.Proof.Gen.ReferenceIdeal.Read
import proofs.«124288_j68590627717564_2_alg».proof.Proof.Gen.Pre_finite_inputs
import proofs.«124288_j68590627717564_2_alg».proof.Proof.Tail
import proofs.«124288_j68590627717564_2_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the result array at `(∑ q, x q * W o q) + b o` of arguments that agree. -/
theorem algebraic : Cert.algebraic_KernelIdeal_ReferenceIdeal := by
  intro m ρ m' ρ' _ hagree
  refine ⟨fun c => Cert.TiledDot.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.reference_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
